-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S32x4096 : Shape := ⟨2, ![32, 4096]⟩
abbrev S32 : Shape := ⟨1, ![32]⟩
abbrev S4096x32 : Shape := ⟨2, ![4096, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S32x4096 : S_.BroadcastsInDim S32x4096 (![] : Fin 0 → Fin S32x4096.rank)
  reducesTo_S32x4096_S_d0_1 : S32x4096.ReducesTo [0, 1] S_
  bcast_S_S32 : S_.BroadcastsInDim S32 (![] : Fin 0 → Fin S32.rank)
  reducesTo_S32_S_d0 : S32.ReducesTo [0] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_arg5 : FVec F S32 .f32) (main_arg6 : FVec F S4096x32 .f32) (main_v13 : IVec S_ 1) (main_v16 : IVec S32x4096 1) : IVec S_ 1 :=
  let main_c_5 : IVec S_ 1 := constantI S_ 1 1#1
  let main_v17 : IVec S_ 1 := (fun x v => Host.reduce IntOp.andi x v reducesTo_S32x4096_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S4096x32 .f32 := Host.absf main_arg6
  let main_cst_8 : FVec F S_ .f32 := constant S_ .f32 0x7F800000#32
  let main_v25 : FVec F S4096x32 .f32 := broadcastInDim S4096x32 ![] bcast_S_S4096x32 main_cst_8
  let main_v26 : IVec S4096x32 1 := cmpf .olt main_v24 main_v25
  let main_c_9 : IVec S_ 1 := constantI S_ 1 1#1
  let main_v27 : IVec S_ 1 := (fun x v => Host.reduce IntOp.andi x v reducesTo_S4096x32_S_d0_1 h_S_) main_v26 main_c_9
  let main_v28 : IVec S_ 1 := andi main_v23 main_v27
  main_v28

def fn {F : FTy → Type} [FloatOps F] (main_arg0 : FVec F S4x2048x4096 .f32) (main_arg1 : IVec S4096x4096 32) (main_arg2 : FVec F S4096 .f32) (main_arg3 : FVec F S4096 .f32) (main_arg4 : FVec F S32x4096 .f32) (main_arg5 : FVec F S32 .f32) (main_arg6 : FVec F S4096x32 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S32x4096 .f32 := Host.absf main_arg4
  let main_cst_4 : FVec F S_ .f32 := constant S_ .f32 0x7F800000#32
  let main_v15 : FVec F S32x4096 .f32 := broadcastInDim S32x4096 ![] bcast_S_S32x4096 main_cst_4
  let main_v16 : IVec S32x4096 1 := cmpf .olt main_v14 main_v15
  fn_part1 (F := F) main_arg5 main_arg6 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S32x4096 : Shape := ⟨2, ![32, 4096]⟩
abbrev S32 : Shape := ⟨1, ![32]⟩
abbrev S4096x32 : Shape := ⟨2, ![4096, 32]⟩
abbrev S8192x4096 : Shape := ⟨2, ![8192, 4096]⟩
abbrev S4096x1 : Shape := ⟨2, ![4096, 1]⟩
abbrev S8192x32 : Shape := ⟨2, ![8192, 32]⟩
abbrev S1x32 : Shape := ⟨2, ![1, 32]⟩
abbrev S1x4096 : Shape := ⟨2, ![1, 4096]⟩
abbrev S1024x1024 : Shape := ⟨2, ![1024, 1024]⟩
abbrev S1x1024 : Shape := ⟨2, ![1, 1024]⟩
abbrev S1024x32 : Shape := ⟨2, ![1024, 32]⟩
abbrev S32x1024 : Shape := ⟨2, ![32, 1024]⟩

abbrev nBuf : Space → Nat
  | .hbm => 23
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S32x4096, .f32⟩
  | .hbm, ⟨5, _⟩ => ⟨S32, .f32⟩
  | .hbm, ⟨6, _⟩ => ⟨S4096x32, .f32⟩
  | .hbm, ⟨7, _⟩ => ⟨S8192x4096, .f32⟩
  | .hbm, ⟨8, _⟩ => ⟨S4096x4096, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S4096x4096, .bf16⟩
  | .hbm, ⟨13, _⟩ => ⟨S8192x4096, .bf16⟩
  | .hbm, ⟨14, _⟩ => ⟨S8192x32, .f32⟩
  | .hbm, ⟨15, _⟩ => ⟨S1x32, .f32⟩
  | .hbm, ⟨16, _⟩ => ⟨S8192x32, .f32⟩
  | .hbm, ⟨17, _⟩ => ⟨S8192x32, .f32⟩
  | .hbm, ⟨18, _⟩ => ⟨S8192x32, .bf16⟩
  | .hbm, ⟨19, _⟩ => ⟨S4096x32, .bf16⟩
  | .hbm, ⟨20, _⟩ => ⟨S1x4096, .f32⟩
  | .hbm, ⟨21, _⟩ => ⟨S8192x4096, .f32⟩
  | .hbm, ⟨22, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x32, .bf16⟩
  | .local _ .vmem, ⟨7, _⟩ => ⟨S1024x32, .bf16⟩
  | .local _ .vmem, ⟨8, _⟩ => ⟨S1024x32, .bf16⟩
  | .local _ .vmem, ⟨9, _⟩ => ⟨S1024x32, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x32 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bitsLt_bf16_f32 : FTy.bits .bf16 < FTy.bits .f32
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  transposes_S1024x32_p1_0_S32x1024 : S1024x32.Transposes [1, 0] S32x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S8192x4096_S32x4096_S8192x32_1_1_0_0_n_n_wf : DotDims.WF S8192x4096 S32x4096 S8192x32 [1] [1] [0] [0] [] []
  dot_S1024x1024_S1024x1024_S1024x1024_1_0_0_1_n_n_wf : DotDims.WF S1024x1024 S1024x1024 S1024x1024 [1] [0] [0] [1] [] []
  dot_S1024x32_S32x1024_S1024x1024_1_0_0_1_n_n_wf : DotDims.WF S1024x32 S32x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S8192x32.size a
  hwx0_3 : ∀ i : grid0.Coords, EltTy.bits .bf16 = 32 ∨ (Rect.block (s := S8192x32) S1024x32.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x32.size a ≤ S4096x32.size a
  hwx0_4 : ∀ i : grid0.Coords, EltTy.bits .bf16 = 32 ∨ (Rect.block (s := S4096x32) S1024x32.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S8192x4096_S32x4096_S8192x32_1_1_0_0_n_n : DotDims S8192x4096 S32x4096 S8192x32 where
  lhsContracting := [1]
  rhsContracting := [1]
  lhsNonContracting := [0]
  rhsNonContracting := [0]
  lhsBatch := []
  rhsBatch := []
  wf := dot_S8192x4096_S32x4096_S8192x32_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf

abbrev win0_0 : Pipeline.Window sig grid0 :=
  Pipeline.Window.ofSpec (Memref.whole main_v6) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1024x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S32x4096 : Shape := ⟨2, ![32, 4096]⟩
abbrev S32 : Shape := ⟨1, ![32]⟩
abbrev S4096x32 : Shape := ⟨2, ![4096, 32]⟩
abbrev S4096x1 : Shape := ⟨2, ![4096, 1]⟩
abbrev S1x1x4096 : Shape := ⟨3, ![1, 1, 4096]⟩
abbrev S4x2048x32 : Shape := ⟨3, ![4, 2048, 32]⟩
abbrev S1x1x32 : Shape := ⟨3, ![1, 1, 32]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S32x4096, .f32⟩
  | .hbm, ⟨5, _⟩ => ⟨S32, .f32⟩
  | .hbm, ⟨6, _⟩ => ⟨S4096x32, .f32⟩
  | .hbm, ⟨7, _⟩ => ⟨S4096x4096, .f32⟩
  | .hbm, ⟨8, _⟩ => ⟨S4096x1, .f32⟩
  | .hbm, ⟨9, _⟩ => ⟨S4096x4096, .f32⟩
  | .hbm, ⟨10, _⟩ => ⟨S4096x4096, .f32⟩
  | .hbm, ⟨11, _⟩ => ⟨S4x2048x4096, .f32⟩
  | .hbm, ⟨12, _⟩ => ⟨S1x1x4096, .f32⟩
  | .hbm, ⟨13, _⟩ => ⟨S4x2048x4096, .f32⟩
  | .hbm, ⟨14, _⟩ => ⟨S4x2048x4096, .f32⟩
  | .hbm, ⟨15, _⟩ => ⟨S4x2048x32, .f32⟩
  | .hbm, ⟨16, _⟩ => ⟨S1x1x32, .f32⟩
  | .hbm, ⟨17, _⟩ => ⟨S4x2048x32, .f32⟩
  | .hbm, ⟨18, _⟩ => ⟨S4x2048x32, .f32⟩
  | .hbm, ⟨19, _⟩ => ⟨S4x2048x4096, .f32⟩
  | .hbm, ⟨20, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S32_S1x1x32_2 : S32.BroadcastsInDim S1x1x32 (![2] : Fin 1 → Fin S1x1x32.rank)
  bcast_S1x1x32_S4x2048x32_0_1_2 : S1x1x32.BroadcastsInDim S4x2048x32 (![0, 1, 2] : Fin 3 → Fin S4x2048x32.rank)
  dot_S4x2048x4096_S4096x4096_S4x2048x4096_2_1_01_0_n_n_wf : DotDims.WF S4x2048x4096 S4096x4096 S4x2048x4096 [2] [1] [0, 1] [0] [] []
  dot_S4x2048x4096_S32x4096_S4x2048x32_2_1_01_0_n_n_wf : DotDims.WF S4x2048x4096 S32x4096 S4x2048x32 [2] [1] [0, 1] [0] [] []
  dot_S4x2048x32_S4096x32_S4x2048x4096_2_1_01_0_n_n_wf : DotDims.WF S4x2048x32 S4096x32 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S32x4096_S4x2048x32_2_1_01_0_n_n : DotDims S4x2048x4096 S32x4096 S4x2048x32 where
  lhsContracting := [2]
  rhsContracting := [1]
  lhsNonContracting := [0, 1]
  rhsNonContracting := [0]
  lhsBatch := []
  rhsBatch := []
  wf := dot_S4x2048x4096_S32x4096_S4x2048x32_2_1_01_0_n_n_wf
def dot_S4x2048x32_S4096x32_S4x2048x4096_2_1_01_0_n_n : DotDims S4x2048x32 S4096x32 S4x2048x4096 where
  lhsContracting := [2]
  rhsContracting := [1]
  lhsNonContracting := [0, 1]
  rhsNonContracting := [0]
  lhsBatch := []
  rhsBatch := []
  wf := dot_S4x2048x32_S4096x32_S4x2048x4096_2_1_01_0_n_n_wf

class Facts : Prop extends Facts₀ where

variable [Facts]
-- ==== Proof.CaseValues.lean ====
/-
  What one grid point leaves behind, as a value.

  The grid is (row tile i, column tile j, feature block k) with k innermost. At every point the body
  adds, to the accumulator tile it carries in scratch, the product of the point's activation block
  with the transpose of its weight block; at k = 0 the accumulator is first reset to zero, and at
  k = 3 the output tile is written: accumulator plus the bias row plus the low-rank product.
  Here each of the three control cases is read back as a term over the body's two arithmetic
  payloads: `k0_pay2 acc x w` (accumulate) and `k0_pay3 xa b acc bias` (finish), at any float instance.
-/
import proofs.«146859_j25202868093527_2_alg».proof.Proof.Gen.KernelIdeal.Frame
import Idealize.ShloMosaic.Lib.Pipeline.Value
import Idealize.ShloMosaic.Lib.Tactic

noncomputable section

namespace Cert.KernelIdeal.Tile

open Cert.KernelIdeal Cert.KernelIdeal.Gen Idealize.ShloMosaic Idealize.ShloMosaic.TcCoe Idealize.SL.Sem
open Idealize.ShloMosaic.Tactic

variable {F : FTy → Type} [FloatOps F]

/-- The zero offsets of a whole-tile load or store. -/
theorem hz : (![0, 0] : Fin 2 → Nat) = fun _ => 0 := funext fun a => by fin_cases a <;> rfl

/-- First feature block (k = 0): the scratch tile ends at the accumulation step applied to the zero tile. -/
theorem acc_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x32 .bf16) (harg6 : arg6.IsWhole) (arg7 : Memref sig .tc .vmem S1024x32 .bf16) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i) (x0 : Vec F S1024x1024 .bf16) (x1 : Vec F S1024x1024 .bf16) (x2 : Vec F S1x1024 .f32) (x3 : Vec F S1024x32 .bf16) (x4 : Vec F S1024x32 .bf16) :
    sout0_A_0 c i arg3 harg3 arg4 harg4 arg5 harg5 arg6 harg6 arg7 harg7 arg8 harg8 arg9 harg9 hc0 hc1 x0 x1 x2 x3 x4 = k0_pay2 (k0_pay1 (F := F)) x0 x1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- A middle feature block (k = 1, 2): the scratch tile ends at the accumulation step applied to what the point before left. -/
theorem acc_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x32 .bf16) (harg6 : arg6.IsWhole) (arg7 : Memref sig .tc .vmem S1024x32 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i) (x0 : Vec F S1024x1024 .bf16) (x1 : Vec F S1024x1024 .bf16) (x2 : Vec F S1x1024 .f32) (x3 : Vec F S1024x32 .bf16) (x4 : Vec F S1024x32 .bf16) (xs0 : Vec F S1024x1024 .f32) :
    sout0_B_0 c i arg3 harg3 arg4 harg4 arg5 harg5 arg6 harg6 arg7 harg7 arg8 harg8 arg9 harg9 hc0 hc1 x0 x1 x2 x3 x4 xs0 = k0_pay2 xs0 x0 x1 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero (S := S1024x1024) hz]
  simp only [View.readAt_eq_ld, harg3.read_unread, harg4.read_unread, harg9.read_unread, View.ld_unit_zero (S := S1024x1024) hz]

/-- Last feature block (k = 3): the output tile ends at the finishing step applied to the accumulator after this block. -/
theorem out_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x32 .bf16) (harg6 : arg6.IsWhole) (arg7 : Memref sig .tc .vmem S1024x32 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (x0 : Vec F S1024x1024 .bf16) (x1 : Vec F S1024x1024 .bf16) (x2 : Vec F S1x1024 .f32) (x3 : Vec F S1024x32 .bf16) (x4 : Vec F S1024x32 .bf16) (xs0 : Vec F S1024x1024 .f32) :
    out0_C_5 c i arg3 harg3 arg4 harg4 arg5 harg5 arg6 harg6 arg7 harg7 arg8 harg8 arg9 harg9 hc0 hc1 x0 x1 x2 x3 x4 xs0 = k0_pay3 x3 x4 (k0_pay2 xs0 x0 x1) x2 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero (S := S1024x1024) hz]
  simp only [View.readAt_eq_ld, View.readCov_unit_zero (S := S1024x1024) _ hz, harg3.read_unread, harg4.read_unread, harg5.read_unread, harg6.read_unread, harg7.read_unread, harg9.read_unread,
    View.ld_unit_zero (S := S1024x1024) hz, View.ld_unit_zero (S := S1024x32) hz, View.ld_unit_zero (S := S1x1024) hz]

end Cert.KernelIdeal.Tile

end
-- ==== Proof.TileChain.lean ====
/-
  One output tile, from the four points that build it.

  For a fixed row tile i and column tile j the grid visits the four feature blocks k = 0, 1, 2, 3 at
  four consecutive points. The accumulator after the last of them is the accumulate step applied four
  times, starting from the zero tile, to the four pairs of blocks in order; the output tile the last
  point writes is the finish step applied to it. No induction over the whole grid is needed: a point
  with k = 3 looks back exactly three points.
-/
import proofs.«146859_j25202868093527_2_alg».proof.Proof.CaseValues

noncomputable section

namespace Cert.KernelIdeal.Tile

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The grid point visited just before `t` (the first point is its own predecessor; never used there). -/
def back (t : Fin cfg0.N) : Fin cfg0.N := ⟨t.val - 1, Nat.lt_of_le_of_lt (Nat.sub_le _ _) t.isLt⟩

theorem back_val (t : Fin cfg0.N) : (back t).val = t.val - 1 := rfl

/-- After a point with k = 0 the accumulator is one accumulate step from zero. -/
theorem scratch_first (c : Dev nD) (T : Fin cfg0.N) (h0 : T.val % 4 = 0) :
    (outsAt0 m c T.val T.isLt).2 = k0_pay2 (k0_pay1 (F := F)) (iblk m c 0 T) (iblk m c 1 T) := by
  have h1 : ¬T.val % 4 = 3 := by omega
  rw [outsAt0_A m c T h0 h1]
  dsimp only
  exact acc_first c (grid0.coords T) (ms0_0 T) (hs0_0 T) (ms0_1 T) (hs0_1 T) (ms0_2 T) (hs0_2 T) (ms0_3 T) (hs0_3 T) (ms0_4 T) (hs0_4 T) (ms0_5 T) (hs0_5 T) scM0_0 (Memref.isWhole_whole _) ((hcond0_0 T).mpr h0) (fun h => h1 ((hcond0_1 T).mp h)) (iblk m c 0 T) (iblk m c 1 T) (iblk m c 2 T) (iblk m c 3 T) (iblk m c 4 T)

/-- After a point with k = 1 or 2 the accumulator is one accumulate step from what the point before left. -/
theorem scratch_middle (c : Dev nD) (T : Fin cfg0.N) (h0 : ¬T.val % 4 = 0) (h1 : ¬T.val % 4 = 3) :
    (outsAt0 m c T.val T.isLt).2
      = k0_pay2 (outsAt0 m c (back T).val (back T).isLt).2 (iblk m c 0 T) (iblk m c 1 T) := by
  rw [outsAt0_B m c T h0 h1]
  dsimp only
  exact acc_middle c (grid0.coords T) (ms0_0 T) (hs0_0 T) (ms0_1 T) (hs0_1 T) (ms0_2 T) (hs0_2 T) (ms0_3 T) (hs0_3 T) (ms0_4 T) (hs0_4 T) (ms0_5 T) (hs0_5 T) scM0_0 (Memref.isWhole_whole _) (fun h => h0 ((hcond0_0 T).mp h)) (fun h => h1 ((hcond0_1 T).mp h)) (iblk m c 0 T) (iblk m c 1 T) (iblk m c 2 T) (iblk m c 3 T) (iblk m c 4 T)
    (outsAt0 m c (T.val - 1) (Nat.lt_of_le_of_lt (Nat.sub_le _ _) T.isLt)).2

/-- A point with k = 3 writes the finish step of one more accumulate step from what the point before left. -/
theorem out_finish (c : Dev nD) (T : Fin cfg0.N) (h3 : T.val % 4 = 3) :
    (outsAt0 m c T.val T.isLt).1
      = k0_pay3 (iblk m c 3 T) (iblk m c 4 T)
          (k0_pay2 (outsAt0 m c (back T).val (back T).isLt).2 (iblk m c 0 T) (iblk m c 1 T)) (iblk m c 2 T) := by
  have h0 : ¬T.val % 4 = 0 := by omega
  rw [outsAt0_C m c T h0 h3]
  dsimp only
  exact out_last c (grid0.coords T) (ms0_0 T) (hs0_0 T) (ms0_1 T) (hs0_1 T) (ms0_2 T) (hs0_2 T) (ms0_3 T) (hs0_3 T) (ms0_4 T) (hs0_4 T) (ms0_5 T) (hs0_5 T) scM0_0 (Memref.isWhole_whole _) (fun h => h0 ((hcond0_0 T).mp h)) ((hcond0_1 T).mpr h3) (iblk m c 0 T) (iblk m c 1 T) (iblk m c 2 T) (iblk m c 3 T) (iblk m c 4 T)
    (outsAt0 m c (T.val - 1) (Nat.lt_of_le_of_lt (Nat.sub_le _ _) T.isLt)).2

/-- THE OUTPUT TILE a point with k = 3 writes: finish, over four accumulate steps from zero, of the blocks of
    the point and of the three points before it. -/
theorem out_tile (c : Dev nD) (t : Fin cfg0.N) (h3 : t.val % 4 = 3) :
    (outsAt0 m c t.val t.isLt).1
      = k0_pay3 (iblk m c 3 t) (iblk m c 4 t)
          (k0_pay2 (k0_pay2 (k0_pay2 (k0_pay2 (k0_pay1 (F := F))
            (iblk m c 0 (back (back (back t)))) (iblk m c 1 (back (back (back t)))))
            (iblk m c 0 (back (back t))) (iblk m c 1 (back (back t))))
            (iblk m c 0 (back t)) (iblk m c 1 (back t)))
            (iblk m c 0 t) (iblk m c 1 t))
          (iblk m c 2 t) := by
  have e1 : (back t).val = t.val - 1 := rfl
  have e2 : (back (back t)).val = t.val - 1 - 1 := rfl
  have e3 : (back (back (back t))).val = t.val - 1 - 1 - 1 := rfl
  rw [out_finish m c t h3,
    scratch_middle m c (back t) (by rw [e1]; omega) (by rw [e1]; omega),
    scratch_middle m c (back (back t)) (by rw [e2]; omega) (by rw [e2]; omega),
    scratch_first m c (back (back (back t))) (by rw [e3]; omega)]

end Cert.KernelIdeal.Tile

end
-- ==== Proof.Payloads.lean ====
/-
  The body's two arithmetic steps, entry by entry, over the extended reals.

  Accumulate: entry (p, q) of the new accumulator tile is the old entry plus the sum over the 1024
  features l of the block of activation(p, l) · weight(q, l) — the weight block enters transposed, so
  both factors are read along their second axis.
  Finish: entry (p, q) of the output tile is (accumulator(p, q) + bias(0, q)) plus the sum over the
  32 ranks r of scaled-projection(p, r) · up-matrix(q, r).
  A matrix product into a zero accumulator is the plain sum of products here: no rounding, no order.
-/
import proofs.«146859_j25202868093527_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-! ## Where the 1024-feature product reads its operands -/

theorem main_lhs_0 (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem main_lhs_1 (j : S1024x1024.Idx) (q : dot_S1024x1024_S1024x1024_S1024x1024_1_0_0_1_n_n.contr.Idx) :
    (dot_S1024x1024_S1024x1024_S1024x1024_1_0_0_1_n_n.lhsIdx j q 1).val = (q ⟨0, by decide⟩).val :=
  dot_S1024x1024_S1024x1024_S1024x1024_1_0_0_1_n_n.lhsIdx_val_of_single rfl j q
theorem main_rhs_0 (j : S1024x1024.Idx) (q : dot_S1024x1024_S1024x1024_S1024x1024_1_0_0_1_n_n.contr.Idx) :
    (dot_S1024x1024_S1024x1024_S1024x1024_1_0_0_1_n_n.rhsIdx j q 0).val = (q ⟨0, by decide⟩).val :=
  dot_S1024x1024_S1024x1024_S1024x1024_1_0_0_1_n_n.rhsIdx_val_of_single rfl j q
theorem main_rhs_1 (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of a [1024,1024] block with a [1024,1024] block into zero, at (p, q): the sum over the shared axis. -/
theorem main_dot_apply (a b : FVec Ideal S1024x1024 .bf16) (p q : Fin 1024) :
    matmul dot_S1024x1024_S1024x1024_S1024x1024_1_0_0_1_n_n none a b (constant S1024x1024 .f32 0x00000000#32) (ix2 p q)
      = ∑ l : Fin 1024, a (ix2 p l) * b (ix2 l q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun l _ => ?_
  have hl := contrEquiv1_symm_val dot_S1024x1024_S1024x1024_S1024x1024_1_0_0_1_n_n 1024 rfl rfl l
  have el : dot_S1024x1024_S1024x1024_S1024x1024_1_0_0_1_n_n.lhsIdx (ix2 p q) ((contrEquiv1 dot_S1024x1024_S1024x1024_S1024x1024_1_0_0_1_n_n 1024 rfl rfl).symm l) = ix2 p l := funext fun a => Fin.ext (by
    match a with
    | ⟨0, _⟩ => exact main_lhs_0 _ _
    | ⟨1, _⟩ => exact (main_lhs_1 _ _).trans hl)
  have er : dot_S1024x1024_S1024x1024_S1024x1024_1_0_0_1_n_n.rhsIdx (ix2 p q) ((contrEquiv1 dot_S1024x1024_S1024x1024_S1024x1024_1_0_0_1_n_n 1024 rfl rfl).symm l) = ix2 l q := funext fun a => Fin.ext (by
    match a with
    | ⟨0, _⟩ => exact (main_rhs_0 _ _).trans hl
    | ⟨1, _⟩ => exact main_rhs_1 _ _)
  rw [el, er]

/-! ## Where the rank-32 product reads its operands -/

theorem low_lhs_0 (j : S1024x1024.Idx) (q : dot_S1024x32_S32x1024_S1024x1024_1_0_0_1_n_n.contr.Idx) :
    (dot_S1024x32_S32x1024_S1024x1024_1_0_0_1_n_n.lhsIdx j q 0).val = (j 0).val := by
  unfold DotDims.lhsIdx
  rw [dif_neg (show ¬(0 : Fin S1024x32.rank) ∈ dot_S1024x32_S32x1024_S1024x1024_1_0_0_1_n_n.lhsBatch by decide), dif_pos (show (0 : Fin S1024x32.rank) ∈ dot_S1024x32_S32x1024_S1024x1024_1_0_0_1_n_n.lhsNonContracting by decide)]
  rfl
theorem low_lhs_1 (j : S1024x1024.Idx) (q : dot_S1024x32_S32x1024_S1024x1024_1_0_0_1_n_n.contr.Idx) :
    (dot_S1024x32_S32x1024_S1024x1024_1_0_0_1_n_n.lhsIdx j q 1).val = (q ⟨0, by decide⟩).val :=
  dot_S1024x32_S32x1024_S1024x1024_1_0_0_1_n_n.lhsIdx_val_of_single rfl j q
theorem low_rhs_0 (j : S1024x1024.Idx) (q : dot_S1024x32_S32x1024_S1024x1024_1_0_0_1_n_n.contr.Idx) :
    (dot_S1024x32_S32x1024_S1024x1024_1_0_0_1_n_n.rhsIdx j q 0).val = (q ⟨0, by decide⟩).val :=
  dot_S1024x32_S32x1024_S1024x1024_1_0_0_1_n_n.rhsIdx_val_of_single rfl j q
theorem low_rhs_1 (j : S1024x1024.Idx) (q : dot_S1024x32_S32x1024_S1024x1024_1_0_0_1_n_n.contr.Idx) :
    (dot_S1024x32_S32x1024_S1024x1024_1_0_0_1_n_n.rhsIdx j q 1).val = (j 1).val := by
  unfold DotDims.rhsIdx
  rw [dif_neg (show ¬(1 : Fin S32x1024.rank) ∈ dot_S1024x32_S32x1024_S1024x1024_1_0_0_1_n_n.rhsBatch by decide), dif_pos (show (1 : Fin S32x1024.rank) ∈ dot_S1024x32_S32x1024_S1024x1024_1_0_0_1_n_n.rhsNonContracting by decide)]
  rfl

/-- The product of a [1024,32] block with a [32,1024] block into zero, at (p, q): the sum over the 32 ranks. -/
theorem low_dot_apply (a : FVec Ideal S1024x32 .bf16) (b : FVec Ideal S32x1024 .bf16) (p q : Fin 1024) :
    matmul dot_S1024x32_S32x1024_S1024x1024_1_0_0_1_n_n none a b (constant S1024x1024 .f32 0x00000000#32) (ix2 p q)
      = ∑ r : Fin 32, a (ix2 p r) * b (ix2 r q) := by
  simp only [matmul]
  rw [Ideal.matmul_constant_zero_apply, ← Equiv.sum_comp (contrEquiv1 dot_S1024x32_S32x1024_S1024x1024_1_0_0_1_n_n 32 rfl rfl).symm]
  refine Finset.sum_congr rfl fun r _ => ?_
  have hr := contrEquiv1_symm_val dot_S1024x32_S32x1024_S1024x1024_1_0_0_1_n_n 32 rfl rfl r
  have el : dot_S1024x32_S32x1024_S1024x1024_1_0_0_1_n_n.lhsIdx (ix2 p q) ((contrEquiv1 dot_S1024x32_S32x1024_S1024x1024_1_0_0_1_n_n 32 rfl rfl).symm r) = ix2 p r := funext fun a => Fin.ext (by
    match a with
    | ⟨0, _⟩ => exact low_lhs_0 _ _
    | ⟨1, _⟩ => exact (low_lhs_1 _ _).trans hr)
  have er : dot_S1024x32_S32x1024_S1024x1024_1_0_0_1_n_n.rhsIdx (ix2 p q) ((contrEquiv1 dot_S1024x32_S32x1024_S1024x1024_1_0_0_1_n_n 32 rfl rfl).symm r) = ix2 r q := funext fun a => Fin.ext (by
    match a with
    | ⟨0, _⟩ => exact (low_rhs_0 _ _).trans hr
    | ⟨1, _⟩ => exact low_rhs_1 _ _)
  rw [el, er]

/-! ## The transposes and the bias row, at an entry -/

/-- The transposed weight block at (l, q) is the weight block at (q, l). -/
theorem weightT_apply (w : FVec Ideal S1024x1024 .bf16) (l q : Fin 1024) :
    transpose S1024x1024 [1, 0] w transposes_S1024x1024_p1_0_S1024x1024 (ix2 l q) = w (ix2 q l) :=
  transpose_apply [1, 0] w transposes_S1024x1024_p1_0_S1024x1024 (ix2 l q) (ix2 q l) (fun b => match b with
    | ⟨0, _⟩ => rfl
    | ⟨1, _⟩ => rfl)

/-- The transposed up-matrix block at (r, q) is the block at (q, r). -/
theorem upT_apply (b : FVec Ideal S1024x32 .bf16) (r : Fin 32) (q : Fin 1024) :
    transpose S32x1024 [1, 0] b transposes_S1024x32_p1_0_S32x1024 (ix2 r q) = b (ix2 q r) :=
  transpose_apply [1, 0] b transposes_S1024x32_p1_0_S32x1024 (ix2 r q) (ix2 q r) (fun a => match a with
    | ⟨0, _⟩ => rfl
    | ⟨1, _⟩ => rfl)

/-- The bias row broadcast down the tile reads, at (p, q), the row's entry q. -/
theorem biasRow_apply (v : FVec Ideal S1x1024 .f32) (p q : Fin 1024) :
    broadcastTo S1024x1024 v broadcasts_S1x1024_S1024x1024 (ix2 p q) = v (ix2 (0 : Fin 1) q) :=
  broadcastTo_apply v broadcasts_S1x1024_S1024x1024 (ix2 p q) (ix2 (0 : Fin 1) q) (fun a => match a with
    | ⟨0, _⟩ => by show (0 : Nat) = if (1 : Nat) = 1 then 0 else _; rw [if_pos rfl]
    | ⟨1, _⟩ => by show q.val = if (1024 : Nat) = 1 then 0 else q.val; rw [if_neg (by decide)])

/-! ## The two steps -/

/-- The reset tile is zero everywhere. -/
theorem zero_apply (j : S1024x1024.Idx) : k0_pay1 (F := Ideal) j = 0 := by
  unfold k0_pay1
  simp only [shapeCast_self]
  exact Ideal.ofBits_zero_f32

/-- ACCUMULATE at (p, q): the old entry plus the block's sum of activation(p, l) · weight(q, l). -/
theorem accumulate_apply (acc : FVec Ideal S1024x1024 .f32) (x w : FVec Ideal S1024x1024 .bf16) (p q : Fin 1024) :
    k0_pay2 (F := Ideal) acc x w (ix2 p q) = acc (ix2 p q) + ∑ l : Fin 1024, x (ix2 p l) * w (ix2 q l) := by
  unfold k0_pay2
  simp only [shapeCast_self]
  refine (addf_apply _ _ _).trans ?_
  refine congrArg (acc (ix2 p q) + ·) ?_
  refine (main_dot_apply _ _ p q).trans ?_
  exact Finset.sum_congr rfl fun l _ => congrArg (x (ix2 p l) * ·) (weightT_apply w l q)

/-- FINISH at (p, q): (accumulator + bias) plus the sum over the ranks of projection(p, r) · up-matrix(q, r). -/
theorem finish_apply (xa b : FVec Ideal S1024x32 .bf16) (acc : FVec Ideal S1024x1024 .f32) (bias : FVec Ideal S1x1024 .f32) (p q : Fin 1024) :
    k0_pay3 (F := Ideal) xa b acc bias (ix2 p q)
      = (acc (ix2 p q) + bias (ix2 (0 : Fin 1) q)) + ∑ r : Fin 32, xa (ix2 p r) * b (ix2 q r) := by
  unfold k0_pay3
  simp only [shapeCast_self]
  refine (addf_apply _ _ _).trans ?_
  refine congrArg₂ (· + ·) ?_ ?_
  · refine (addf_apply _ _ _).trans ?_
    exact congrArg (acc (ix2 p q) + ·) (biasRow_apply bias p q)
  · refine (low_dot_apply _ _ p q).trans ?_
    exact Finset.sum_congr rfl fun r _ => congrArg (xa (ix2 p r) * ·) (upT_apply b r q)

/-- ONE OUTPUT TILE at (p, q): four accumulate steps from zero over the blocks in order, then finish. -/
theorem tile_apply (x0 w0 x1 w1 x2 w2 x3 w3 : FVec Ideal S1024x1024 .bf16) (bias : FVec Ideal S1x1024 .f32)
    (xa b : FVec Ideal S1024x32 .bf16) (p q : Fin 1024) :
    k0_pay3 (F := Ideal) xa b (k0_pay2 (F := Ideal) (k0_pay2 (F := Ideal) (k0_pay2 (F := Ideal) (k0_pay2 (F := Ideal) (k0_pay1 (F := Ideal)) x0 w0) x1 w1) x2 w2) x3 w3) bias (ix2 p q)
      = (((((0 + ∑ l : Fin 1024, x0 (ix2 p l) * w0 (ix2 q l))
          + ∑ l : Fin 1024, x1 (ix2 p l) * w1 (ix2 q l))
          + ∑ l : Fin 1024, x2 (ix2 p l) * w2 (ix2 q l))
          + ∑ l : Fin 1024, x3 (ix2 p l) * w3 (ix2 q l))
        + bias (ix2 (0 : Fin 1) q))
      + ∑ r : Fin 32, xa (ix2 p r) * b (ix2 q r) := by
  rw [finish_apply, accumulate_apply, accumulate_apply, accumulate_apply, accumulate_apply, zero_apply]

end Cert.KernelIdeal.Tile

end
-- ==== Proof.BlockSum.lean ====
/-
  Splitting a sum of 4096 terms into four consecutive runs of 1024.

  The kernel contracts the 4096 input features in four steps, one per run of 1024 features,
  adding each partial sum to an accumulator that starts at zero; the reference contracts all
  4096 features in one sum. In a commutative additive monoid the two agree — and the extended
  reals are one: their addition is commutative and associative at the infinities too, so no
  finiteness of the terms is needed.
-/
import Idealize.ShloMosaic.Lib.ValueIdx

namespace Cert.BlockSum

/-- Feature `j` of run `b`: the feature numbered `b * 1024 + j`. -/
def feat (b : Fin 4) (j : Fin 1024) : Fin 4096 :=
  ⟨b.val * 1024 + j.val, by have := b.isLt; have := j.isLt; omega⟩

@[simp] theorem feat_val (b : Fin 4) (j : Fin 1024) : (feat b j).val = b.val * 1024 + j.val := rfl

/-- The four runs start at features 0, 1024, 2048 and 3072. -/
theorem feat0_val (j : Fin 1024) : (feat 0 j).val = j.val := by show 0 * 1024 + j.val = j.val; omega
theorem feat1_val (j : Fin 1024) : (feat 1 j).val = 1024 + j.val := by show 1 * 1024 + j.val = 1024 + j.val; omega
theorem feat2_val (j : Fin 1024) : (feat 2 j).val = 2048 + j.val := by show 2 * 1024 + j.val = 2048 + j.val; omega
theorem feat3_val (j : Fin 1024) : (feat 3 j).val = 3072 + j.val := by show 3 * 1024 + j.val = 3072 + j.val; omega

/-- Every feature lies in exactly one run: pairs (run, position) and features correspond one to one. -/
def featEquiv : Fin 4 × Fin 1024 ≃ Fin 4096 where
  toFun p := feat p.1 p.2
  invFun k := (⟨k.val / 1024, by have := k.isLt; omega⟩, ⟨k.val % 1024, Nat.mod_lt _ (by decide)⟩)
  left_inv p := by
    obtain ⟨b, j⟩ := p
    have hb := b.isLt; have hj := j.isLt
    refine Prod.ext (Fin.ext ?_) (Fin.ext ?_)
    · show (b.val * 1024 + j.val) / 1024 = b.val
      omega
    · show (b.val * 1024 + j.val) % 1024 = j.val
      omega
  right_inv k := by
    refine Fin.ext ?_
    show k.val / 1024 * 1024 + k.val % 1024 = k.val
    omega

/-- A sum over all 4096 features is the sum, over the four runs, of the sums within each run. -/
theorem sum_runs {M : Type*} [AddCommMonoid M] (f : Fin 4096 → M) :
    ∑ k : Fin 4096, f k = ∑ b : Fin 4, ∑ j : Fin 1024, f (feat b j) := by
  rw [← Equiv.sum_comp featEquiv f, Fintype.sum_prod_type]
  rfl

/-- The accumulator's form: starting from zero and adding the four runs' sums in order gives the whole sum. -/
theorem sum_accumulated {M : Type*} [AddCommMonoid M] (f : Fin 4096 → M) :
    (((0 + ∑ j : Fin 1024, f (feat 0 j)) + ∑ j : Fin 1024, f (feat 1 j))
        + ∑ j : Fin 1024, f (feat 2 j)) + ∑ j : Fin 1024, f (feat 3 j)
      = ∑ k : Fin 4096, f k := by
  rw [sum_runs, Fin.sum_univ_four, zero_add]

end Cert.BlockSum
-- ==== Proof.Spec.lean ====
/-
  The result, entry by entry, and the one law that joins the two programs.

  Write x2[M, ·] for row M of the activations flattened to [8192, 4096], w[o, ·] for row o of the
  dequantized weight, xa[M, ·] for the scaled low-rank projection and lb[o, ·] for the up-matrix. The
  kernel's region leaves at (M, o)

      ((((0 + Σ_{l<1024} x2[M, l]·w[o, l]) + Σ_l x2[M, 1024+l]·w[o, 1024+l]) + …) + …) + bias[o]) + Σ_r xa[M, r]·lb[o, r]

  — four partial contractions added in order to an accumulator that starts at zero — and the
  reference computes (Σ_{k<4096} x2[M, k]·w[o, k] + bias[o]) + Σ_r xa[M, r]·lb[o, r]. They agree because
  addition of extended reals is commutative and associative, infinities included.
-/
import proofs.«146859_j25202868093527_2_alg».proof.Proof.BlockSum
import Idealize.ShloMosaic.Lib.ValueIdx

noncomputable section

namespace Cert.Spec

open Idealize.ShloMosaic Idealize.ShloMosaic.ValueIdx Cert.BlockSum

/-- A matrix of extended reals with literal extents. -/
abbrev Mat (a b : Nat) : Type := (⟨2, ![a, b]⟩ : Shape).Idx → EReal

/-- Entry (M, O) of what the kernel's region writes, from the five arrays it reads. -/
def tileEntry (X : Mat 8192 4096) (W : Mat 4096 4096) (Bias : Mat 1 4096) (XA : Mat 8192 32) (LB : Mat 4096 32)
    (M : Fin 8192) (O : Fin 4096) : EReal :=
  (((((0 + ∑ l : Fin 1024, X (ix2 M (feat 0 l)) * W (ix2 O (feat 0 l)))
      + ∑ l : Fin 1024, X (ix2 M (feat 1 l)) * W (ix2 O (feat 1 l)))
      + ∑ l : Fin 1024, X (ix2 M (feat 2 l)) * W (ix2 O (feat 2 l)))
      + ∑ l : Fin 1024, X (ix2 M (feat 3 l)) * W (ix2 O (feat 3 l)))
    + Bias (ix2 (0 : Fin 1) O))
  + ∑ r : Fin 32, XA (ix2 M r) * LB (ix2 O r)

/-- The region's whole result array. -/
def regionOut (X : Mat 8192 4096) (W : Mat 4096 4096) (Bias : Mat 1 4096) (XA : Mat 8192 32) (LB : Mat 4096 32) : Mat 8192 4096 :=
  fun i => tileEntry X W Bias XA LB ⟨(i 0).val, (i 0).isLt⟩ ⟨(i 1).val, (i 1).isLt⟩

/-- The accumulated form is the single contraction over all 4096 features. -/
theorem tileEntry_eq (X : Mat 8192 4096) (W : Mat 4096 4096) (Bias : Mat 1 4096) (XA : Mat 8192 32) (LB : Mat 4096 32)
    (M : Fin 8192) (O : Fin 4096) :
    tileEntry X W Bias XA LB M O
      = (∑ k : Fin 4096, X (ix2 M k) * W (ix2 O k) + Bias (ix2 (0 : Fin 1) O)) + ∑ r : Fin 32, XA (ix2 M r) * LB (ix2 O r) := by
  unfold tileEntry
  rw [sum_accumulated (fun k : Fin 4096 => X (ix2 M k) * W (ix2 O k))]

end Cert.Spec

end
-- ==== Proof.TileEntry.lean ====
/-
  One output tile is a tile of the region's result.

  If the four activation blocks hold rows of X at the four runs of features, the four weight blocks the
  matching rows of W, the bias block its stretch of the bias row, and the projection and up-matrix
  blocks their rows, then entry (p, q) of the tile the finish step writes is entry (M, O) of the
  region's result formula.
-/
import proofs.«146859_j25202868093527_2_alg».proof.Proof.Payloads
import proofs.«146859_j25202868093527_2_alg».proof.Proof.Spec

noncomputable section

namespace Cert.KernelIdeal.Tile

open Cert.KernelIdeal Cert.KernelIdeal.Gen Idealize.ShloMosaic Idealize.ShloMosaic.ValueIdx
open Cert.Spec Cert.BlockSum

theorem tile_entry (x0 w0 x1 w1 x2 w2 x3 w3 : FVec Ideal S1024x1024 .bf16) (bias : FVec Ideal S1x1024 .f32)
    (xa b : FVec Ideal S1024x32 .bf16)
    (X : Mat 8192 4096) (W : Mat 4096 4096) (Bias : Mat 1 4096) (XA : Mat 8192 32) (LB : Mat 4096 32)
    (p q : Fin 1024) (M : Fin 8192) (O : Fin 4096)
    (hx0 : ∀ l : Fin 1024, x0 (ix2 p l) = X (ix2 M (feat 0 l))) (hw0 : ∀ l : Fin 1024, w0 (ix2 q l) = W (ix2 O (feat 0 l)))
    (hx1 : ∀ l : Fin 1024, x1 (ix2 p l) = X (ix2 M (feat 1 l))) (hw1 : ∀ l : Fin 1024, w1 (ix2 q l) = W (ix2 O (feat 1 l)))
    (hx2 : ∀ l : Fin 1024, x2 (ix2 p l) = X (ix2 M (feat 2 l))) (hw2 : ∀ l : Fin 1024, w2 (ix2 q l) = W (ix2 O (feat 2 l)))
    (hx3 : ∀ l : Fin 1024, x3 (ix2 p l) = X (ix2 M (feat 3 l))) (hw3 : ∀ l : Fin 1024, w3 (ix2 q l) = W (ix2 O (feat 3 l)))
    (hb : bias (ix2 (0 : Fin 1) q) = Bias (ix2 (0 : Fin 1) O))
    (hxa : ∀ r : Fin 32, xa (ix2 p r) = XA (ix2 M r)) (hlb : ∀ r : Fin 32, b (ix2 q r) = LB (ix2 O r)) :
    k0_pay3 (F := Ideal) xa b (k0_pay2 (F := Ideal) (k0_pay2 (F := Ideal) (k0_pay2 (F := Ideal) (k0_pay2 (F := Ideal) (k0_pay1 (F := Ideal)) x0 w0) x1 w1) x2 w2) x3 w3) bias (ix2 p q) = tileEntry X W Bias XA LB M O := by
  rw [tile_apply]
  unfold tileEntry
  simp only [hx0, hw0, hx1, hw1, hx2, hw2, hx3, hw3, hb, hxa, hlb]

end Cert.KernelIdeal.Tile

end
-- ==== Proof.RegionArray.lean ====
/-
  From tiles to the array the region leaves.

  Grid point number n stands for row tile n / 16, column tile n / 4 mod 4 and feature block n mod 4.
  Each window's block at a point is its array read at block index × block size + the position inside
  the block; a point with feature block 3 writes output tile (row tile, column tile), whose entries are
  those of one whole-array function of the five arrays the region reads; the 8 × 4 tiles cover the
  [8192, 4096] result, so after the run the array is that function.
-/
import proofs.«146859_j25202868093527_2_alg».proof.Proof.TileChain
import proofs.«146859_j25202868093527_2_alg».proof.Proof.TileEntry

noncomputable section

namespace Cert.KernelIdeal.Tile

open Cert.KernelIdeal Cert.KernelIdeal.Gen Idealize.ShloMosaic Idealize.ShloMosaic.TcCoe Idealize.SL.Sem
open Idealize.ShloMosaic.ValueIdx
open Idealize.ShloMosaic.Pipeline (Dat)
open Cert.Spec Cert.BlockSum

variable (m : (ℓ : Loc nD τ sig) → Buf (Elt Ideal) ℓ)

/-- The printed block-index maps, decided once over the 128 points: activations (row tile, feature block),
    weight (column tile, feature block), bias (0, column tile), projection (row tile, 0), up-matrix
    (column tile, 0), output (row tile, column tile). -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = 0
    ∧ win0_4.index t (0 : Fin 2) = t.val / 4 % 4 ∧ win0_4.index t (1 : Fin 2) = 0
    ∧ win0_5.index t (0 : Fin 2) = t.val / 16 ∧ win0_5.index t (1 : Fin 2) = t.val / 4 % 4 :=
  (by decide +kernel : ∀ t : Fin grid0.N, _)

/-! ## Each input block, read where it sits in its array -/

/-- The activation block at a point, at (p, l): the flattened activations at row (row tile)·1024 + p, feature (feature block)·1024 + l. -/
theorem act_block (c : Dev nD) (T : Fin cfg0.N) (p : Fin 1024) (l : Fin 1024) (A : Fin 8192) (B : Fin 4096)
    (hA : A.val = T.val / 16 * 1024 + p.val) (hB : B.val = T.val % 4 * 1024 + l.val) :
    (iblk m c 0 T : Vec Ideal S1024x1024 .bf16) (ix2 p l) = (V m c main_v6 : FVec Ideal S8192x4096 .bf16) (ix2 A B) := by
  obtain ⟨a0, a1, w0, w1, b0, b1, x0, x1, u0, u1, o0, o1⟩ := idx_facts T
  unfold iblk
  rw [View.read_apply]
  show (V m c main_v6 : FVec Ideal S8192x4096 .bf16) (((cfg0.win 0).blk T).view.emb (ix2 p l)) = (V m c main_v6 : FVec Ideal S8192x4096 .bf16) (ix2 A B)
  refine congrArg (V m c main_v6 : FVec Ideal S8192x4096 .bf16) (funext fun a => Fin.ext ?_)
  match a with
  | ⟨0, _⟩ => show win0_0.index T (0 : Fin 2) * 1024 + 1 * p.val = A.val; rw [a0, hA]; omega
  | ⟨1, _⟩ => show win0_0.index T (1 : Fin 2) * 1024 + 1 * l.val = B.val; rw [a1, hB]; omega

/-- The weight block at a point, at (q, l): the dequantized weight at row (column tile)·1024 + q, feature (feature block)·1024 + l. -/
theorem weight_block (c : Dev nD) (T : Fin cfg0.N) (p : Fin 1024) (l : Fin 1024) (A : Fin 4096) (B : Fin 4096)
    (hA : A.val = T.val / 4 % 4 * 1024 + p.val) (hB : B.val = T.val % 4 * 1024 + l.val) :
    (iblk m c 1 T : Vec Ideal S1024x1024 .bf16) (ix2 p l) = (V m c main_v5 : FVec Ideal S4096x4096 .bf16) (ix2 A B) := by
  obtain ⟨a0, a1, w0, w1, b0, b1, x0, x1, u0, u1, o0, o1⟩ := idx_facts T
  unfold iblk
  rw [View.read_apply]
  show (V m c main_v5 : FVec Ideal S4096x4096 .bf16) (((cfg0.win 1).blk T).view.emb (ix2 p l)) = (V m c main_v5 : FVec Ideal S4096x4096 .bf16) (ix2 A B)
  refine congrArg (V m c main_v5 : FVec Ideal S4096x4096 .bf16) (funext fun a => Fin.ext ?_)
  match a with
  | ⟨0, _⟩ => show win0_1.index T (0 : Fin 2) * 1024 + 1 * p.val = A.val; rw [w0, hA]; omega
  | ⟨1, _⟩ => show win0_1.index T (1 : Fin 2) * 1024 + 1 * l.val = B.val; rw [w1, hB]; omega

/-- The bias block at a point, at (0, q): the bias row at column (column tile)·1024 + q. -/
theorem bias_block (c : Dev nD) (T : Fin cfg0.N) (p : Fin 1) (l : Fin 1024) (A : Fin 1) (B : Fin 4096)
    (hA : A.val = 0 + p.val) (hB : B.val = T.val / 4 % 4 * 1024 + l.val) :
    (iblk m c 2 T : Vec Ideal S1x1024 .f32) (ix2 p l) = (V m c main_v13 : FVec Ideal S1x4096 .f32) (ix2 A B) := by
  obtain ⟨a0, a1, w0, w1, b0, b1, x0, x1, u0, u1, o0, o1⟩ := idx_facts T
  unfold iblk
  rw [View.read_apply]
  show (V m c main_v13 : FVec Ideal S1x4096 .f32) (((cfg0.win 2).blk T).view.emb (ix2 p l)) = (V m c main_v13 : FVec Ideal S1x4096 .f32) (ix2 A B)
  refine congrArg (V m c main_v13 : FVec Ideal S1x4096 .f32) (funext fun a => Fin.ext ?_)
  match a with
  | ⟨0, _⟩ => show win0_2.index T (0 : Fin 2) * 1 + 1 * p.val = A.val; rw [b0, hA]; omega
  | ⟨1, _⟩ => show win0_2.index T (1 : Fin 2) * 1024 + 1 * l.val = B.val; rw [b1, hB]; omega

/-- The projection block at a point, at (p, r): the scaled projection at row (row tile)·1024 + p, rank r. -/
theorem proj_block (c : Dev nD) (T : Fin cfg0.N) (p : Fin 1024) (l : Fin 32) (A : Fin 8192) (B : Fin 32)
    (hA : A.val = T.val / 16 * 1024 + p.val) (hB : B.val = 0 + l.val) :
    (iblk m c 3 T : Vec Ideal S1024x32 .bf16) (ix2 p l) = (V m c main_v11 : FVec Ideal S8192x32 .bf16) (ix2 A B) := by
  obtain ⟨a0, a1, w0, w1, b0, b1, x0, x1, u0, u1, o0, o1⟩ := idx_facts T
  unfold iblk
  rw [View.read_apply]
  show (V m c main_v11 : FVec Ideal S8192x32 .bf16) (((cfg0.win 3).blk T).view.emb (ix2 p l)) = (V m c main_v11 : FVec Ideal S8192x32 .bf16) (ix2 A B)
  refine congrArg (V m c main_v11 : FVec Ideal S8192x32 .bf16) (funext fun a => Fin.ext ?_)
  match a with
  | ⟨0, _⟩ => show win0_3.index T (0 : Fin 2) * 1024 + 1 * p.val = A.val; rw [x0, hA]; omega
  | ⟨1, _⟩ => show win0_3.index T (1 : Fin 2) * 32 + 1 * l.val = B.val; rw [x1, hB]; omega

/-- The up-matrix block at a point, at (q, r): the up-matrix at row (column tile)·1024 + q, rank r. -/
theorem up_block (c : Dev nD) (T : Fin cfg0.N) (p : Fin 1024) (l : Fin 32) (A : Fin 4096) (B : Fin 32)
    (hA : A.val = T.val / 4 % 4 * 1024 + p.val) (hB : B.val = 0 + l.val) :
    (iblk m c 4 T : Vec Ideal S1024x32 .bf16) (ix2 p l) = (V m c main_v12 : FVec Ideal S4096x32 .bf16) (ix2 A B) := by
  obtain ⟨a0, a1, w0, w1, b0, b1, x0, x1, u0, u1, o0, o1⟩ := idx_facts T
  unfold iblk
  rw [View.read_apply]
  show (V m c main_v12 : FVec Ideal S4096x32 .bf16) (((cfg0.win 4).blk T).view.emb (ix2 p l)) = (V m c main_v12 : FVec Ideal S4096x32 .bf16) (ix2 A B)
  refine congrArg (V m c main_v12 : FVec Ideal S4096x32 .bf16) (funext fun a => Fin.ext ?_)
  match a with
  | ⟨0, _⟩ => show win0_4.index T (0 : Fin 2) * 1024 + 1 * p.val = A.val; rw [u0, hA]; omega
  | ⟨1, _⟩ => show win0_4.index T (1 : Fin 2) * 32 + 1 * l.val = B.val; rw [u1, hB]; omega

/-! ## What a writing point writes -/

/-- The region's result as one function of the five arrays as the region finds them. -/
abbrev result (c : Dev nD) : FVec Ideal S8192x4096 .f32 :=
  regionOut (V m c main_v6 : FVec Ideal S8192x4096 .bf16) (V m c main_v5 : FVec Ideal S4096x4096 .bf16) (V m c main_v13 : FVec Ideal S1x4096 .f32) (V m c main_v11 : FVec Ideal S8192x32 .bf16) (V m c main_v12 : FVec Ideal S4096x32 .bf16)

/-- A point with feature block 3 writes back its tile of `result`. -/
theorem flushed_eq (c : Dev nD) (t : Fin cfg0.N) (h3 : t.val % 4 = 3) :
    (dats m 0 c).flushed 5 t = ((cfg0.win 5).blk t).view.read (Elt Ideal) (result m c) := by
  have hN : t.val < 128 := lt_of_lt_of_eq t.isLt (show cfg0.N = 128 from N_0)
  show (cfg0.win 5).cut (grid0.coords t) ((dats m 0 c).after 5 t) = _
  rw [after0_5, out_tile m c t h3]
  obtain ⟨-, -, -, -, -, -, -, -, -, -, o0, o1⟩ := idx_facts t
  funext y
  obtain ⟨p, q, rfl⟩ : ∃ (p : Fin 1024) (q : Fin 1024), y = ix2 p q := ⟨y 0, y 1, eq_ix2 y⟩
  have hp : p.val < 1024 := p.isLt
  have hq : q.val < 1024 := q.isLt
  have hM : t.val / 16 * 1024 + p.val < 8192 := by omega
  have hO : t.val / 4 % 4 * 1024 + q.val < 4096 := by omega
  rw [View.read_apply]
  have hemb : ((cfg0.win 5).blk t).view.emb (ix2 p q) = (ix2 (⟨t.val / 16 * 1024 + p.val, hM⟩ : Fin 8192) (⟨t.val / 4 % 4 * 1024 + q.val, hO⟩ : Fin 4096) : S8192x4096.Idx) := by
    funext a; apply Fin.ext
    match a with
    | ⟨0, _⟩ => show win0_5.index t (0 : Fin 2) * 1024 + 1 * p.val = t.val / 16 * 1024 + p.val; rw [o0]; omega
    | ⟨1, _⟩ => show win0_5.index t (1 : Fin 2) * 1024 + 1 * q.val = t.val / 4 % 4 * 1024 + q.val; rw [o1]; omega
  rw [hemb]
  have e1 : (back t).val = t.val - 1 := rfl
  have e2 : (back (back t)).val = t.val - 1 - 1 := rfl
  have e3 : (back (back (back t))).val = t.val - 1 - 1 - 1 := rfl
  exact tile_entry (iblk m c 0 (back (back (back t)))) (iblk m c 1 (back (back (back t))))
    (iblk m c 0 (back (back t))) (iblk m c 1 (back (back t))) (iblk m c 0 (back t)) (iblk m c 1 (back t))
    (iblk m c 0 t) (iblk m c 1 t) (iblk m c 2 t) (iblk m c 3 t) (iblk m c 4 t)
    (V m c main_v6 : FVec Ideal S8192x4096 .bf16) (V m c main_v5 : FVec Ideal S4096x4096 .bf16) (V m c main_v13 : FVec Ideal S1x4096 .f32) (V m c main_v11 : FVec Ideal S8192x32 .bf16) (V m c main_v12 : FVec Ideal S4096x32 .bf16) p q (⟨t.val / 16 * 1024 + p.val, hM⟩ : Fin 8192) (⟨t.val / 4 % 4 * 1024 + q.val, hO⟩ : Fin 4096)
    (fun l => act_block m c (back (back (back t))) p l (⟨t.val / 16 * 1024 + p.val, hM⟩ : Fin 8192) (feat 0 l)
      (by show t.val / 16 * 1024 + p.val = (back (back (back t))).val / 16 * 1024 + p.val; rw [e3]; omega)
      (by rw [feat0_val, e3]; omega))
    (fun l => weight_block m c (back (back (back t))) q l (⟨t.val / 4 % 4 * 1024 + q.val, hO⟩ : Fin 4096) (feat 0 l)
      (by show t.val / 4 % 4 * 1024 + q.val = (back (back (back t))).val / 4 % 4 * 1024 + q.val; rw [e3]; omega)
      (by rw [feat0_val, e3]; omega))
    (fun l => act_block m c (back (back t)) p l (⟨t.val / 16 * 1024 + p.val, hM⟩ : Fin 8192) (feat 1 l)
      (by show t.val / 16 * 1024 + p.val = (back (back t)).val / 16 * 1024 + p.val; rw [e2]; omega)
      (by rw [feat1_val, e2]; omega))
    (fun l => weight_block m c (back (back t)) q l (⟨t.val / 4 % 4 * 1024 + q.val, hO⟩ : Fin 4096) (feat 1 l)
      (by show t.val / 4 % 4 * 1024 + q.val = (back (back t)).val / 4 % 4 * 1024 + q.val; rw [e2]; omega)
      (by rw [feat1_val, e2]; omega))
    (fun l => act_block m c (back t) p l (⟨t.val / 16 * 1024 + p.val, hM⟩ : Fin 8192) (feat 2 l)
      (by show t.val / 16 * 1024 + p.val = (back t).val / 16 * 1024 + p.val; rw [e1]; omega)
      (by rw [feat2_val, e1]; omega))
    (fun l => weight_block m c (back t) q l (⟨t.val / 4 % 4 * 1024 + q.val, hO⟩ : Fin 4096) (feat 2 l)
      (by show t.val / 4 % 4 * 1024 + q.val = (back t).val / 4 % 4 * 1024 + q.val; rw [e1]; omega)
      (by rw [feat2_val, e1]; omega))
    (fun l => act_block m c (t) p l (⟨t.val / 16 * 1024 + p.val, hM⟩ : Fin 8192) (feat 3 l)
      (by show t.val / 16 * 1024 + p.val = (t).val / 16 * 1024 + p.val; omega)
      (by rw [feat3_val]; omega))
    (fun l => weight_block m c (t) q l (⟨t.val / 4 % 4 * 1024 + q.val, hO⟩ : Fin 4096) (feat 3 l)
      (by show t.val / 4 % 4 * 1024 + q.val = (t).val / 4 % 4 * 1024 + q.val; omega)
      (by rw [feat3_val]; omega))
    (bias_block m c t 0 q 0 (⟨t.val / 4 % 4 * 1024 + q.val, hO⟩ : Fin 4096) (by show (0 : Nat) = 0 + 0; omega) (by show t.val / 4 % 4 * 1024 + q.val = t.val / 4 % 4 * 1024 + q.val; rfl))
    (fun r => proj_block m c t p r (⟨t.val / 16 * 1024 + p.val, hM⟩ : Fin 8192) r (by show t.val / 16 * 1024 + p.val = t.val / 16 * 1024 + p.val; rfl) (by omega))
    (fun r => up_block m c t q r (⟨t.val / 4 % 4 * 1024 + q.val, hO⟩ : Fin 4096) r (by show t.val / 4 % 4 * 1024 + q.val = t.val / 4 % 4 * 1024 + q.val; rfl) (by omega))

/-! ## The tiles cover the array -/

/-- An index of the result is in a point's output tile iff each coordinate is in the tile's range. -/
theorem mem_tile (t : Fin cfg0.N) (i : S8192x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v14).slice (win0_5.rect t)).set ↔ _
  rw [View.set_slice_whole, Rect.mem_set_unit]
  exact Iff.rfl

/-- Every index of the result lies in the tile of a writing point: row tile (row / 1024), column tile (column / 1024), feature block 3. -/
theorem covered (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hn : (i 0).val / 1024 * 16 + (i 1).val / 1024 * 4 + 3 < cfg0.N := by rw [show cfg0.N = 128 from N_0]; omega
  refine ⟨⟨(i 0).val / 1024 * 16 + (i 1).val / 1024 * 4 + 3, hn⟩, (flush0_5 _).mpr (by show ((i 0).val / 1024 * 16 + (i 1).val / 1024 * 4 + 3) % 4 = 3; omega), ?_⟩
  obtain ⟨-, -, -, -, -, -, -, -, -, -, o0, o1⟩ := idx_facts ⟨(i 0).val / 1024 * 16 + (i 1).val / 1024 * 4 + 3, hn⟩
  have o0' : win0_5.index ⟨(i 0).val / 1024 * 16 + (i 1).val / 1024 * 4 + 3, hn⟩ (0 : Fin 2) = ((i 0).val / 1024 * 16 + (i 1).val / 1024 * 4 + 3) / 16 := o0
  have o1' : win0_5.index ⟨(i 0).val / 1024 * 16 + (i 1).val / 1024 * 4 + 3, hn⟩ (1 : Fin 2) = ((i 0).val / 1024 * 16 + (i 1).val / 1024 * 4 + 3) / 4 % 4 := o1
  rw [mem_tile]
  intro a
  match a with
  | ⟨0, _⟩ =>
    show win0_5.index _ (0 : Fin 2) * 1024 ≤ (i 0).val ∧ (i 0).val < win0_5.index _ (0 : Fin 2) * 1024 + 1024
    rw [o0']; omega
  | ⟨1, _⟩ =>
    show win0_5.index _ (1 : Fin 2) * 1024 ≤ (i 1).val ∧ (i 1).val < win0_5.index _ (1 : Fin 2) * 1024 + 1024
    rw [o1']; omega

/-- THE ARRAY the region leaves is `result`. -/
theorem region_final (c : Dev nD) : (dats m 0 c).arrAt 5 cfg0.N = result m c :=
  (dats m 0 c).arrAt_eq_of_cover 5 (result m c) (fun t hf => flushed_eq m c t ((flush0_5 t).mp hf)) covered

end Cert.KernelIdeal.Tile

end
-- ==== Proof.HostSide.lean ====
/-
  The arrays the region reads, as the host lines before it compute them from the arguments.

  Before the call the program flattens the activations x[4, 2048, 4096] to [8192, 4096]; dequantizes the
  weight, w[o, i] = float(wq[o, i]) · scale[o]; computes the scaled low-rank projection
  xa[M, r] = (Σ_i x2[M, i] · A[r, i]) · S[r]; and lays the bias out as a row [1, 4096]. The casts to a
  shorter float format in between change nothing over the extended reals. Each array is named here as
  that term of the argument arrays.
-/
import proofs.«146859_j25202868093527_2_alg».proof.Proof.Gen.KernelIdeal.Frame
import Idealize.ShloMosaic.Lib.StableHlo.Run
import Idealize.ShloMosaic.Lib.Tactic
import Idealize.ShloMosaic.PureOps.Ideal.Laws

noncomputable section

namespace Cert.KernelIdeal.Host

open Cert.KernelIdeal Cert.KernelIdeal.Gen Idealize.ShloMosaic Idealize.ShloMosaic.TcCoe Idealize.SL.Sem
open Idealize.ShloMosaic.Tactic Idealize.ShloMosaic.StableHlo

/-- The activations flattened to [8192, 4096]. -/
abbrev flatAct (x : FVec Ideal S4x2048x4096 .f32) : FVec Ideal S8192x4096 .f32 :=
  shapeCast S8192x4096 x shapeCasts_S4x2048x4096_S8192x4096

/-- The activations as the region reads them. -/
abbrev actArr (x : FVec Ideal S4x2048x4096 .f32) : FVec Ideal S8192x4096 .bf16 :=
  truncf .bf16 (flatAct x) bitsLt_bf16_f32

/-- The dequantized weight as the region reads it. -/
abbrev weightArr (wq : IVec S4096x4096 32) (scale : FVec Ideal S4096 .f32) : FVec Ideal S4096x4096 .bf16 :=
  truncf .bf16 (mulf (sitofp (F := Ideal) .f32 wq)
    (broadcastInDim S4096x4096 ![0, 1] bcast_S4096x1_S4096x4096_0_1 (broadcastInDim S4096x1 ![0] bcast_S4096_S4096x1_0 scale))) bitsLt_bf16_f32

/-- The bias as a row. -/
abbrev biasArr (bias : FVec Ideal S4096 .f32) : FVec Ideal S1x4096 .f32 :=
  shapeCast S1x4096 bias shapeCasts_S4096_S1x4096

/-- The scaled low-rank projection as the region reads it. -/
abbrev projArr (x : FVec Ideal S4x2048x4096 .f32) (a : FVec Ideal S32x4096 .f32) (s : FVec Ideal S32 .f32) : FVec Ideal S8192x32 .bf16 :=
  truncf .bf16 (mulf (Host.dotGeneral (F := Ideal) dot_S8192x4096_S32x4096_S8192x32_1_1_0_0_n_n none (flatAct x) a)
    (broadcastInDim S8192x32 ![0, 1] bcast_S1x32_S8192x32_0_1 (broadcastInDim S1x32 ![1] bcast_S32_S1x32_1 s))) bitsLt_bf16_f32

/-- The up-matrix as the region reads it. -/
abbrev upArr (b : FVec Ideal S4096x32 .f32) : FVec Ideal S4096x32 .bf16 :=
  truncf .bf16 b bitsLt_bf16_f32

variable (m : (ℓ : Loc nD τ sig) → Buf (Elt Ideal) ℓ)

theorem V_act (c : Dev nD) : (V m c main_v6 : FVec Ideal S8192x4096 .bf16) = actArr (m ((c : Thread nD τ).loc main_arg0)) := by
  show StableHlo.after hostOps0 (fun b => m (c, b)) (Proc.devRef .tc main_v6) = _
  after_results <;> rfl

theorem V_weight (c : Dev nD) : (V m c main_v5 : FVec Ideal S4096x4096 .bf16) = weightArr (m ((c : Thread nD τ).loc main_arg1)) (m ((c : Thread nD τ).loc main_arg2)) := by
  show StableHlo.after hostOps0 (fun b => m (c, b)) (Proc.devRef .tc main_v5) = _
  after_results <;> rfl

theorem V_bias (c : Dev nD) : (V m c main_v13 : FVec Ideal S1x4096 .f32) = biasArr (m ((c : Thread nD τ).loc main_arg3)) := by
  show StableHlo.after hostOps0 (fun b => m (c, b)) (Proc.devRef .tc main_v13) = _
  after_results <;> rfl

theorem V_proj (c : Dev nD) : (V m c main_v11 : FVec Ideal S8192x32 .bf16) = projArr (m ((c : Thread nD τ).loc main_arg0)) (m ((c : Thread nD τ).loc main_arg4)) (m ((c : Thread nD τ).loc main_arg5)) := by
  show StableHlo.after hostOps0 (fun b => m (c, b)) (Proc.devRef .tc main_v11) = _
  after_results <;> rfl

theorem V_up (c : Dev nD) : (V m c main_v12 : FVec Ideal S4096x32 .bf16) = upArr (m ((c : Thread nD τ).loc main_arg6)) := by
  show StableHlo.after hostOps0 (fun b => m (c, b)) (Proc.devRef .tc main_v12) = _
  after_results <;> rfl

end Cert.KernelIdeal.Host

end
-- ==== Proof.HostEntries.lean ====
/-
  The arrays the region reads, entry by entry.

  Row M = b·2048 + s of the flattened activations is x[b, s, ·]; the dequantized weight at (o, k) is
  float(wq[o, k]) · scale[o]; the bias row at (0, o) is bias[o]; the scaled projection at (M, r) is
  (Σ_k x[b, s, k] · A[r, k]) · S[r]; the up-matrix is itself. A change of float format is the identity
  over the extended reals, so it disappears from every entry.
-/
import proofs.«146859_j25202868093527_2_alg».proof.Proof.HostSide
import Idealize.ShloMosaic.Lib.Pipeline.Value
import Idealize.ShloMosaic.Lib.ValueIdx

noncomputable section

namespace Cert.KernelIdeal.Host

open Cert.KernelIdeal Cert.KernelIdeal.Gen Idealize.ShloMosaic Idealize.ShloMosaic.ValueIdx

/-- The flattened activations at (M, k), with M = b·2048 + s, are the activations at (b, s, k): the same row-major position. -/
theorem flatAct_apply (x : FVec Ideal S4x2048x4096 .f32) (b : Fin 4) (s : Fin 2048) (k : Fin 4096) (M : Fin 8192)
    (hM : M.val = b.val * 2048 + s.val) : flatAct x (ix2 M k) = x (ix3 b s k) := by
  refine shapeCast_apply x shapeCasts_S4x2048x4096_S8192x4096 (ix2 M k) (ix3 b s k) ?_
  rw [Shape.rowMajor_val_three, Shape.rowMajor_val_two]
  show (b.val * 2048 + s.val) * 4096 + k.val = M.val * 4096 + k.val
  rw [hM]

theorem actArr_apply (x : FVec Ideal S4x2048x4096 .f32) (b : Fin 4) (s : Fin 2048) (k : Fin 4096) (M : Fin 8192)
    (hM : M.val = b.val * 2048 + s.val) : actArr x (ix2 M k) = x (ix3 b s k) :=
  flatAct_apply x b s k M hM

/-- The per-row scale laid out over the weight's shape reads, at (o, k), the scale of row o. -/
theorem scaleGrid_apply (scale : FVec Ideal S4096 .f32) (o k : Fin 4096) :
    broadcastInDim S4096x4096 ![0, 1] bcast_S4096x1_S4096x4096_0_1 (broadcastInDim S4096x1 ![0] bcast_S4096_S4096x1_0 scale) (ix2 o k)
      = scale (ix1 o) := by
  refine (broadcastInDim_apply _ bcast_S4096x1_S4096x4096_0_1 _ (ix2 o k) (ix2 o (0 : Fin 1)) (fun a => match a with
    | ⟨0, _⟩ => by show o.val = if (4096 : Nat) = 1 then 0 else o.val; rw [if_neg (by decide)]
    | ⟨1, _⟩ => by show (0 : Nat) = if (1 : Nat) = 1 then 0 else k.val; rw [if_pos rfl])).trans ?_
  exact broadcastInDim_apply _ bcast_S4096_S4096x1_0 scale (ix2 o (0 : Fin 1)) (ix1 o) (fun a => match a with
    | ⟨0, _⟩ => by show o.val = if (4096 : Nat) = 1 then 0 else o.val; rw [if_neg (by decide)])

/-- The dequantized weight at (o, k): the integer weight made a float, times row o's scale. -/
theorem weightArr_apply (wq : IVec S4096x4096 32) (scale : FVec Ideal S4096 .f32) (o k : Fin 4096) :
    weightArr wq scale (ix2 o k) = FloatOps.sitofp (F := Ideal) .f32 (wq (ix2 o k)) * scale (ix1 o) :=
  congrArg (FloatOps.sitofp (F := Ideal) .f32 (wq (ix2 o k)) * ·) (scaleGrid_apply scale o k)

/-- The bias row at (0, o) is the bias at o. -/
theorem biasArr_apply (bias : FVec Ideal S4096 .f32) (o : Fin 4096) : biasArr bias (ix2 (0 : Fin 1) o) = bias (ix1 o) := by
  refine shapeCast_apply bias shapeCasts_S4096_S1x4096 (ix2 (0 : Fin 1) o) (ix1 o) ?_
  rw [Shape.rowMajor_val_one, Shape.rowMajor_val_two]
  show o.val = 0 * 4096 + o.val
  omega

/-- The per-rank scale laid out over the projection's shape reads, at (M, r), the scale of rank r. -/
theorem rankGrid_apply (s : FVec Ideal S32 .f32) (M : Fin 8192) (r : Fin 32) :
    broadcastInDim S8192x32 ![0, 1] bcast_S1x32_S8192x32_0_1 (broadcastInDim S1x32 ![1] bcast_S32_S1x32_1 s) (ix2 M r)
      = s (ix1 r) := by
  refine (broadcastInDim_apply _ bcast_S1x32_S8192x32_0_1 _ (ix2 M r) (ix2 (0 : Fin 1) r) (fun a => match a with
    | ⟨0, _⟩ => by show (0 : Nat) = if (1 : Nat) = 1 then 0 else M.val; rw [if_pos rfl]
    | ⟨1, _⟩ => by show r.val = if (32 : Nat) = 1 then 0 else r.val; rw [if_neg (by decide)])).trans ?_
  exact broadcastInDim_apply _ bcast_S32_S1x32_1 s (ix2 (0 : Fin 1) r) (ix1 r) (fun a => match a with
    | ⟨0, _⟩ => by show r.val = if (32 : Nat) = 1 then 0 else r.val; rw [if_neg (by decide)])

/-! ### Where the projection's product reads its operands -/

theorem proj_lhs_0 (j : S8192x32.Idx) (q : dot_S8192x4096_S32x4096_S8192x32_1_1_0_0_n_n.contr.Idx) :
    (dot_S8192x4096_S32x4096_S8192x32_1_1_0_0_n_n.lhsIdx j q 0).val = (j 0).val := by
  unfold DotDims.lhsIdx
  rw [dif_neg (show ¬(0 : Fin S8192x4096.rank) ∈ dot_S8192x4096_S32x4096_S8192x32_1_1_0_0_n_n.lhsBatch by decide), dif_pos (show (0 : Fin S8192x4096.rank) ∈ dot_S8192x4096_S32x4096_S8192x32_1_1_0_0_n_n.lhsNonContracting by decide)]
  rfl
theorem proj_lhs_1 (j : S8192x32.Idx) (q : dot_S8192x4096_S32x4096_S8192x32_1_1_0_0_n_n.contr.Idx) :
    (dot_S8192x4096_S32x4096_S8192x32_1_1_0_0_n_n.lhsIdx j q 1).val = (q ⟨0, by decide⟩).val :=
  dot_S8192x4096_S32x4096_S8192x32_1_1_0_0_n_n.lhsIdx_val_of_single rfl j q
theorem proj_rhs_0 (j : S8192x32.Idx) (q : dot_S8192x4096_S32x4096_S8192x32_1_1_0_0_n_n.contr.Idx) :
    (dot_S8192x4096_S32x4096_S8192x32_1_1_0_0_n_n.rhsIdx j q 0).val = (j 1).val := by
  unfold DotDims.rhsIdx
  rw [dif_neg (show ¬(0 : Fin S32x4096.rank) ∈ dot_S8192x4096_S32x4096_S8192x32_1_1_0_0_n_n.rhsBatch by decide), dif_pos (show (0 : Fin S32x4096.rank) ∈ dot_S8192x4096_S32x4096_S8192x32_1_1_0_0_n_n.rhsNonContracting by decide)]
  rfl
theorem proj_rhs_1 (j : S8192x32.Idx) (q : dot_S8192x4096_S32x4096_S8192x32_1_1_0_0_n_n.contr.Idx) :
    (dot_S8192x4096_S32x4096_S8192x32_1_1_0_0_n_n.rhsIdx j q 1).val = (q ⟨0, by decide⟩).val :=
  dot_S8192x4096_S32x4096_S8192x32_1_1_0_0_n_n.rhsIdx_val_of_single rfl j q

/-- The low-rank product at (M, r): the sum over the 4096 features of activation(M, k) · A(r, k). -/
theorem projDot_apply (x2 : FVec Ideal S8192x4096 .f32) (a : FVec Ideal S32x4096 .f32) (M : Fin 8192) (r : Fin 32) :
    Host.dotGeneral (F := Ideal) dot_S8192x4096_S32x4096_S8192x32_1_1_0_0_n_n none x2 a (ix2 M r) = ∑ k : Fin 4096, x2 (ix2 M k) * a (ix2 r k) := by
  simp only [Host.dotGeneral]
  rw [Ideal.dotGeneral_apply, ← Equiv.sum_comp (contrEquiv1 dot_S8192x4096_S32x4096_S8192x32_1_1_0_0_n_n 4096 rfl rfl).symm]
  refine Finset.sum_congr rfl fun k _ => ?_
  have hk := contrEquiv1_symm_val dot_S8192x4096_S32x4096_S8192x32_1_1_0_0_n_n 4096 rfl rfl k
  have el : dot_S8192x4096_S32x4096_S8192x32_1_1_0_0_n_n.lhsIdx (ix2 M r) ((contrEquiv1 dot_S8192x4096_S32x4096_S8192x32_1_1_0_0_n_n 4096 rfl rfl).symm k) = ix2 M k := funext fun a => Fin.ext (by
    match a with
    | ⟨0, _⟩ => exact proj_lhs_0 _ _
    | ⟨1, _⟩ => exact (proj_lhs_1 _ _).trans hk)
  have er : dot_S8192x4096_S32x4096_S8192x32_1_1_0_0_n_n.rhsIdx (ix2 M r) ((contrEquiv1 dot_S8192x4096_S32x4096_S8192x32_1_1_0_0_n_n 4096 rfl rfl).symm k) = ix2 r k := funext fun a => Fin.ext (by
    match a with
    | ⟨0, _⟩ => exact proj_rhs_0 _ _
    | ⟨1, _⟩ => exact (proj_rhs_1 _ _).trans hk)
  rw [el, er]

/-- The scaled projection at (M, r), with M = b·2048 + s. -/
theorem projArr_apply (x : FVec Ideal S4x2048x4096 .f32) (a : FVec Ideal S32x4096 .f32) (sc : FVec Ideal S32 .f32)
    (b : Fin 4) (s : Fin 2048) (r : Fin 32) (M : Fin 8192) (hM : M.val = b.val * 2048 + s.val) :
    projArr x a sc (ix2 M r) = (∑ k : Fin 4096, x (ix3 b s k) * a (ix2 r k)) * sc (ix1 r) := by
  refine congrArg₂ (· * ·) ?_ (rankGrid_apply sc M r)
  refine (projDot_apply (flatAct x) a M r).trans ?_
  exact Finset.sum_congr rfl fun k _ => congrArg (· * a (ix2 r k)) (flatAct_apply x b s k M hM)

/-- The up-matrix as read is the up-matrix. -/
theorem upArr_apply (w : FVec Ideal S4096x32 .f32) (o : Fin 4096) (r : Fin 32) : upArr w (ix2 o r) = w (ix2 o r) := rfl

end Cert.KernelIdeal.Host

end
-- ==== Proof.Result.lean ====
/-
  The layer's output, entry by entry, as a function of the seven arguments.

      out[b, s, o] = (Σ_k x[b, s, k] · (float(wq[o, k]) · scale[o]) + bias[o])
                     + Σ_r ((Σ_k x[b, s, k] · A[r, k]) · S[r]) · B[o, r]

  a quantized linear map with a per-row scale and a bias, plus a rank-32 correction. Both programs
  are shown to compute this entry.
-/
import proofs.«146859_j25202868093527_2_alg».proof.Proof.Spec
import Idealize.ShloMosaic.PureOps.Ideal

noncomputable section

namespace Cert.Spec

open Idealize.ShloMosaic Idealize.ShloMosaic.ValueIdx

/-- Entry (b, s, o) of the output. -/
def linearOut (x : (⟨3, ![4, 2048, 4096]⟩ : Shape).Idx → EReal) (wq : (⟨2, ![4096, 4096]⟩ : Shape).Idx → BitVec 32)
    (scale bias : (⟨1, ![4096]⟩ : Shape).Idx → EReal) (a : Mat 32 4096) (sc : (⟨1, ![32]⟩ : Shape).Idx → EReal) (lb : Mat 4096 32)
    (b : Fin 4) (s : Fin 2048) (o : Fin 4096) : EReal :=
  (∑ k : Fin 4096, x (ix3 b s k) * (FloatOps.sitofp (F := Ideal) .f32 (wq (ix2 o k)) * scale (ix1 o)) + bias (ix1 o))
    + ∑ r : Fin 32, ((∑ k : Fin 4096, x (ix3 b s k) * a (ix2 r k)) * sc (ix1 r)) * lb (ix2 o r)

end Cert.Spec

end
-- ==== Proof.KernelEntries.lean ====
/-
  The kernel program computes the output entry.

  The region's result is reshaped back to [4, 2048, 4096]: entry (b, s, o) is the region's entry
  (b·2048 + s, o). There the four partial contractions added in order are the whole contraction over
  the 4096 features, and every array the region reads is, entry by entry, the argument data the
  output formula names.
-/
import proofs.«146859_j25202868093527_2_alg».proof.Proof.HostEntries
import proofs.«146859_j25202868093527_2_alg».proof.Proof.Result

noncomputable section

namespace Cert.KernelIdeal.Host

open Cert.KernelIdeal Cert.KernelIdeal.Gen Idealize.ShloMosaic Idealize.ShloMosaic.ValueIdx Cert.Spec

/-- What the kernel program returns, as a term of its seven arguments: the region's result over the host-side arrays, reshaped back. -/
abbrev kernelOut (x : FVec Ideal S4x2048x4096 .f32) (wq : IVec S4096x4096 32) (scale bias : FVec Ideal S4096 .f32)
    (a : FVec Ideal S32x4096 .f32) (sc : FVec Ideal S32 .f32) (lb : FVec Ideal S4096x32 .f32) : FVec Ideal S4x2048x4096 .f32 :=
  shapeCast S4x2048x4096 (regionOut (actArr x) (weightArr wq scale) (biasArr bias) (projArr x a sc) (upArr lb))
    shapeCasts_S8192x4096_S4x2048x4096

/-- THE KERNEL PROGRAM at (b, s, o) is the output entry. -/
theorem kernelOut_apply (x : FVec Ideal S4x2048x4096 .f32) (wq : IVec S4096x4096 32) (scale bias : FVec Ideal S4096 .f32)
    (a : FVec Ideal S32x4096 .f32) (sc : FVec Ideal S32 .f32) (lb : FVec Ideal S4096x32 .f32)
    (b : Fin 4) (s : Fin 2048) (o : Fin 4096) :
    kernelOut x wq scale bias a sc lb (ix3 b s o) = linearOut x wq scale bias a sc lb b s o := by
  have hb : b.val < 4 := b.isLt
  have hs : s.val < 2048 := s.isLt
  have hM : b.val * 2048 + s.val < 8192 := by omega
  refine (shapeCast_apply (regionOut (actArr x) (weightArr wq scale) (biasArr bias) (projArr x a sc) (upArr lb))
    shapeCasts_S8192x4096_S4x2048x4096 (ix3 b s o) (ix2 (⟨b.val * 2048 + s.val, hM⟩ : Fin 8192) o) ?_).trans ?_
  · rw [Shape.rowMajor_val_two, Shape.rowMajor_val_three]
    show (b.val * 2048 + s.val) * 4096 + o.val = (b.val * 2048 + s.val) * 4096 + o.val
    rfl
  show tileEntry (actArr x) (weightArr wq scale) (biasArr bias) (projArr x a sc) (upArr lb) ⟨b.val * 2048 + s.val, hM⟩ o = _
  rw [tileEntry_eq]
  have h1 : ∀ k : Fin 4096, actArr x (ix2 (⟨b.val * 2048 + s.val, hM⟩ : Fin 8192) k) = x (ix3 b s k) :=
    fun k => actArr_apply x b s k _ rfl
  have h2 : ∀ k : Fin 4096, weightArr wq scale (ix2 o k) = FloatOps.sitofp (F := Ideal) .f32 (wq (ix2 o k)) * scale (ix1 o) :=
    fun k => weightArr_apply wq scale o k
  have h3 : biasArr bias (ix2 (0 : Fin 1) o) = bias (ix1 o) := biasArr_apply bias o
  have h4 : ∀ r : Fin 32, projArr x a sc (ix2 (⟨b.val * 2048 + s.val, hM⟩ : Fin 8192) r)
      = (∑ k : Fin 4096, x (ix3 b s k) * a (ix2 r k)) * sc (ix1 r) := fun r => projArr_apply x a sc b s r _ rfl
  have h5 : ∀ r : Fin 32, upArr lb (ix2 o r) = lb (ix2 o r) := fun r => upArr_apply lb o r
  simp only [h1, h2, h3, h4, h5]
  rfl

end Cert.KernelIdeal.Host

end
-- ==== Proof.KernelRun.lean ====
/-
  The kernel program's run, with its result named.

  Every weakly fair execution ends with the seven arguments unchanged and the result buffer holding
  the region's result — the tiles of the four-step accumulation — reshaped back, the arrays the region
  read being the host-side terms of the arguments.
-/
import proofs.«146859_j25202868093527_2_alg».proof.Proof.RegionArray
import proofs.«146859_j25202868093527_2_alg».proof.Proof.KernelEntries

noncomputable section

namespace Cert.KernelIdeal.Whole

open Cert.KernelIdeal Cert.KernelIdeal.Gen Idealize.ShloMosaic Idealize.ShloMosaic.TcCoe Idealize.SL.Sem
open Idealize.ShloMosaic.Tactic Idealize.ShloMosaic.StableHlo
open Cert.KernelIdeal.Tile Cert.KernelIdeal.Host Cert.Spec

variable (m : (ℓ : Loc nD τ sig) → Buf (Elt Ideal) ℓ) (ρ : Dev nD → PrngReg)

/-- The region's result over the arrays as the region finds them is the region's result over the host-side terms. -/
theorem result_eq (c : Dev nD) :
    Tile.result m c = regionOut (actArr (m ((c : Thread nD τ).loc main_arg0))) (weightArr (m ((c : Thread nD τ).loc main_arg1)) (m ((c : Thread nD τ).loc main_arg2))) (biasArr (m ((c : Thread nD τ).loc main_arg3)))
      (projArr (m ((c : Thread nD τ).loc main_arg0)) (m ((c : Thread nD τ).loc main_arg4)) (m ((c : Thread nD τ).loc main_arg5))) (upArr (m ((c : Thread nD τ).loc main_arg6))) := by
  show regionOut _ _ _ _ _ = _
  rw [V_act m c, V_weight m c, V_bias m c, V_proj m c, V_up m c]

/-- After the line that follows the region, the result buffer holds the kernel program's term of the arguments. -/
theorem tail_eq (c : Dev nD) :
    Pipeline.afterTail₀ cfgs (dats m) 0 (V0 m) [hostOps1] c main_v15
      = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Pipeline.afterTail₀
  show StableHlo.after hostOps1 _ (Proc.devRef .tc main_v15) = _
  after_results
  show shapeCast S4x2048x4096 (Pipeline.withArrays (cfgs 0).spec c (V0 m c) (fun w => (dats m 0 c).arrAt w (cfgs 0).N)
    (Proc.devRef .tc main_v14)) shapeCasts_S8192x4096_S4x2048x4096 = _
  refine congrArg (fun A : FVec Ideal S8192x4096 .f32 => shapeCast S4x2048x4096 A shapeCasts_S8192x4096_S4x2048x4096) ?_
  exact (Pipeline.withArrays_arr spec0 launch0.win.arr_inj c _ _ 5).trans ((region_final m c).trans (result_eq m c))

/-- THE RUN: the result buffer at the kernel program's term, the arguments unchanged. -/
theorem run : θ_run defs (onTc (τ := τ) (main (F := Ideal))) ⟨m, fun _ => 0, ρ⟩ fun r => ∀ c : Dev nD,
      r.2.mem ((c : Thread nD τ).loc main_v15)
        = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Whole

end
-- ==== Proof.RefEntries.lean ====
/-
  The reference computes the output entry.

  Read one operation at a time, the reference's result at (b, s, o) is the contraction of x[b, s, ·] with
  the dequantized weight row o, plus bias[o], plus the contraction over the 32 ranks of the scaled
  projection with B[o, ·]. Each layout operation only renames an index, so what is left to check is
  that the composed index functions are the coordinates one expects.
-/
import proofs.«146859_j25202868093527_2_alg».proof.Proof.Gen.ReferenceIdeal.Read
import proofs.«146859_j25202868093527_2_alg».proof.Proof.Result

noncomputable section

namespace Cert.ReferenceIdeal.Entries

open Cert.ReferenceIdeal Cert.ReferenceIdeal.Read Idealize.ShloMosaic Idealize.ShloMosaic.ValueIdx Cert.Spec

/-! ## The composed index functions, as coordinates -/

theorem lidx4 (b : Fin 4) (s : Fin 2048) (o k : Fin 4096) : lidx_main_v4 (ix3 b s o) k = ix3 b s k :=
  funext fun a => Fin.ext (by match a with | ⟨0, _⟩ => rfl | ⟨1, _⟩ => rfl | ⟨2, _⟩ => rfl)
theorem ridx4 (b : Fin 4) (s : Fin 2048) (o k : Fin 4096) : ridx_main_v4 (ix3 b s o) k = ix2 o k :=
  funext fun a => Fin.ext (by match a with | ⟨0, _⟩ => rfl | ⟨1, _⟩ => rfl)
theorem idx12 (o k : Fin 4096) : idx_main_v1 (idx_main_v2 (ix2 o k)) = ix1 o :=
  funext fun a => Fin.ext (by match a with | ⟨0, _⟩ => rfl)
theorem idx56 (b : Fin 4) (s : Fin 2048) (o : Fin 4096) : idx_main_v5 (idx_main_v6 (ix3 b s o)) = ix1 o :=
  funext fun a => Fin.ext (by match a with | ⟨0, _⟩ => rfl)
theorem lidx12 (b : Fin 4) (s : Fin 2048) (o : Fin 4096) (r : Fin 32) : lidx_main_v12 (ix3 b s o) r = ix3 b s r :=
  funext fun a => Fin.ext (by match a with | ⟨0, _⟩ => rfl | ⟨1, _⟩ => rfl | ⟨2, _⟩ => rfl)
theorem ridx12 (b : Fin 4) (s : Fin 2048) (o : Fin 4096) (r : Fin 32) : ridx_main_v12 (ix3 b s o) r = ix2 o r :=
  funext fun a => Fin.ext (by match a with | ⟨0, _⟩ => rfl | ⟨1, _⟩ => rfl)
theorem lidx8 (b : Fin 4) (s : Fin 2048) (r : Fin 32) (k : Fin 4096) : lidx_main_v8 (ix3 b s r) k = ix3 b s k :=
  funext fun a => Fin.ext (by match a with | ⟨0, _⟩ => rfl | ⟨1, _⟩ => rfl | ⟨2, _⟩ => rfl)
theorem ridx8 (b : Fin 4) (s : Fin 2048) (r : Fin 32) (k : Fin 4096) : ridx_main_v8 (ix3 b s r) k = ix2 r k :=
  funext fun a => Fin.ext (by match a with | ⟨0, _⟩ => rfl | ⟨1, _⟩ => rfl)
theorem idx910 (b : Fin 4) (s : Fin 2048) (r : Fin 32) : idx_main_v9 (idx_main_v10 (ix3 b s r)) = ix1 r :=
  funext fun a => Fin.ext (by match a with | ⟨0, _⟩ => rfl)

/-- THE REFERENCE at (b, s, o) is the output entry. -/
theorem reference_apply (x0 : (⟨S4x2048x4096, .f32⟩ : BufTy).Contents (Elt Ideal)) (x1 : (⟨S4096x4096, .i32⟩ : BufTy).Contents (Elt Ideal))
    (x2 x3 : (⟨S4096, .f32⟩ : BufTy).Contents (Elt Ideal)) (x4 : (⟨S32x4096, .f32⟩ : BufTy).Contents (Elt Ideal))
    (x5 : (⟨S32, .f32⟩ : BufTy).Contents (Elt Ideal)) (x6 : (⟨S4096x32, .f32⟩ : BufTy).Contents (Elt Ideal))
    (b : Fin 4) (s : Fin 2048) (o : Fin 4096) :
    val_main_v13 (F := Ideal) x0 x1 x2 x3 x4 x5 x6 (ix3 b s o) = linearOut x0 x1 x2 x3 x4 x5 x6 b s o := by
  rw [val_main_v13_apply, val_main_v7_apply, val_main_v4_apply, val_main_v6_apply, val_main_v5_apply, val_main_v12_apply]
  simp only [val_main_v3_apply, val_main_v0_apply, val_main_v2_apply, val_main_v1_apply, val_main_v11_apply, val_main_v8_apply,
    val_main_v10_apply, val_main_v9_apply, lidx4, ridx4, idx12, idx56, lidx12, ridx12, lidx8, ridx8, idx910]
  rfl

end Cert.ReferenceIdeal.Entries

end
-- ==== Proof.lean ====
/-
  A quantized linear layer with a rank-32 correction: the tiled kernel against the plain reference.

  Both programs compute, for activations x[4, 2048, 4096], integer weights wq[4096, 4096] with a per-row
  scale, a bias, and low-rank factors A[32, 4096], S[32], B[4096, 32],

      out[b, s, o] = (Σ_k x[b, s, k] · (float(wq[o, k]) · scale[o]) + bias[o])
                     + Σ_r ((Σ_k x[b, s, k] · A[r, k]) · S[r]) · B[o, r].

  The reference does this with three whole contractions. The kernel flattens x to [8192, 4096], prepares
  the dequantized weight and the scaled projection once, and then walks a grid of 8 row tiles × 4 column
  tiles × 4 feature blocks: for each output tile it adds four partial contractions, in order, to an
  accumulator that starts at zero, and at the last block adds the bias row and the rank-32 product and
  writes the tile. Read over the extended reals, where a change of float format is the identity, the
  two agree entry by entry: a sum of 4096 terms split into four consecutive runs of 1024 is the same
  sum, because addition of extended reals is commutative and associative even at the infinities — so
  the finiteness of the inputs is never used. The kernel's idealization rewrote nothing.
-/
import proofs.«146859_j25202868093527_2_alg».proof.Defs
import proofs.«146859_j25202868093527_2_alg».proof.Proof.Gen.Kernel
import proofs.«146859_j25202868093527_2_alg».proof.Proof.Gen.Kernel.Skeleton
import proofs.«146859_j25202868093527_2_alg».proof.Proof.Gen.Kernel.Launch
import proofs.«146859_j25202868093527_2_alg».proof.Proof.Gen.Kernel.Points
import proofs.«146859_j25202868093527_2_alg».proof.Proof.Gen.Kernel.Frame
import proofs.«146859_j25202868093527_2_alg».proof.Proof.Gen.KernelIdeal
import proofs.«146859_j25202868093527_2_alg».proof.Proof.Gen.KernelIdeal.Skeleton
import proofs.«146859_j25202868093527_2_alg».proof.Proof.Gen.KernelIdeal.Launch
import proofs.«146859_j25202868093527_2_alg».proof.Proof.Gen.KernelIdeal.Points
import proofs.«146859_j25202868093527_2_alg».proof.Proof.Gen.KernelIdeal.Frame
import proofs.«146859_j25202868093527_2_alg».proof.Proof.Gen.ReferenceIdeal
import proofs.«146859_j25202868093527_2_alg».proof.Proof.Gen.ReferenceIdeal.Run
import proofs.«146859_j25202868093527_2_alg».proof.Proof.Gen.ReferenceIdeal.Read
import proofs.«146859_j25202868093527_2_alg».proof.Proof.Gen.Pre_finite_inputs
import proofs.«146859_j25202868093527_2_alg».proof.Proof.KernelRun
import proofs.«146859_j25202868093527_2_alg».proof.Proof.RefEntries
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: it runs, and writes no argument. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals. -/
theorem preserves : Cert.preserves_Kernel_KernelIdeal := trivial

/-- The reference's result array and the kernel program's are one function of the seven arguments: at every entry
    (b, s, o) both are the output formula. -/
theorem results_agree (x : FVec Ideal Cert.KernelIdeal.S4x2048x4096 .f32) (wq : IVec Cert.KernelIdeal.S4096x4096 32)
    (scale bias : FVec Ideal Cert.KernelIdeal.S4096 .f32) (a : FVec Ideal Cert.KernelIdeal.S32x4096 .f32)
    (sc : FVec Ideal Cert.KernelIdeal.S32 .f32) (lb : FVec Ideal Cert.KernelIdeal.S4096x32 .f32) :
    Cert.ReferenceIdeal.Read.val_main_v13 (F := Ideal) x wq scale bias a sc lb
      = Cert.KernelIdeal.Host.kernelOut x wq scale bias a sc lb := by
  funext i
  obtain ⟨b, s, o, rfl⟩ : ∃ (b : Fin 4) (s : Fin 2048) (o : Fin 4096), i = ix3 b s o := ⟨i 0, i 1, i 2, eq_ix3 i⟩
  exact (Cert.ReferenceIdeal.Entries.reference_apply x wq scale bias a sc lb b s o).trans
    (Cert.KernelIdeal.Host.kernelOut_apply x wq scale bias a sc lb b s o).symm

/-- From memories that agree on the arguments both programs end with the same result array. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6, Cert.ReferenceIdeal.Read.val_main_v13_eq]
  exact results_agree _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
